-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S64x2048 : Shape := ⟨2, ![64, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S8192x2048 .f32) (main_arg1 : FVec F S64x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S8192x2048 : Shape := ⟨2, ![8192, 2048]⟩
abbrev S64x2048 : Shape := ⟨2, ![64, 2048]⟩
abbrev S8192x64 : Shape := ⟨2, ![8192, 64]⟩
abbrev S1024x1024 : Shape := ⟨2, ![1024, 1024]⟩
abbrev S64x1024 : Shape := ⟨2, ![64, 1024]⟩
abbrev S1024x64 : Shape := ⟨2, ![1024, 64]⟩
abbrev S1024 : Shape := ⟨1, ![1024]⟩
abbrev S1024x1 : Shape := ⟨2, ![1024, 1]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S64x1024, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  inb_S64x1024_S64x1024_0_0 : ∀ a, (![0, 0] : Fin 2 → Nat) a + S64x1024.size a ≤ S64x1024.size a
  h_S64x1024 : 0 < S64x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  dot_S1024x1024_S64x1024_S1024x64_1_1_0_0_n_n_wf : DotDims.WF S1024x1024 S64x1024 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x2048.size a
  hwx0_1 : ∀ i : grid0.Coords, EltTy.bits .f32 = 32 ∨ (Rect.block (s := S64x2048) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S64x2048 : Shape := ⟨2, ![64, 2048]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S2048x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x64, .f32⟩
  | .hbm, ⟨17, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x2048_S2048x64_1_0 : S64x2048.Transposes [1, 0] S2048x64
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.Pieces.lean ====
/-
  What one run of the kernel body leaves behind, as values, at any float instance.

  The body multiplies the point's block of tokens by the point's block of weights (contracting the 1024
  columns both blocks share). At a point whose contraction coordinate is 0 it stores that product into the
  accumulator. At a point whose contraction coordinate is 1 it stores the accumulator plus the product back
  into the accumulator, reads the accumulator again — so it reads what it has just stored — and writes the
  row softmax of that into the output block. Each store covers its whole buffer and each load reads a whole
  buffer, so what a buffer holds afterwards is just the value stored last.
-/
import proofs.«140512_g13709535609206_cont_week2b_1308_11_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Contraction coordinate 0: the accumulator is left holding the product of the two blocks. -/
theorem acc_first (c : Dev nD) (i : grid0.Coords) (a2 : Memref sig .tc .vmem S1024x1024 .f32) (h2 : a2.IsWhole)
    (a3 : Memref sig .tc .vmem S64x1024 .f32) (h3 : a3.IsWhole) (a4 : Memref sig .tc .vmem S1024x64 .f32) (h4 : a4.IsWhole)
    (a5 : Memref sig .tc .vmem S1024x64 .f32) (h5 : a5.IsWhole) (hc0 : cond0_0 i) (hc1 : ¬cond0_1 i) (hc2 : ¬cond0_2 i)
    (x0 : Vec F S1024x1024 .f32) (x1 : Vec F S64x1024 .f32) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz]
  simp only [View.readAt_eq_ld, h2.read_unread, h3.read_unread, View.ld_unit_zero (S := S1024x1024) hz,
    View.ld_unit_zero (S := S64x1024) hz]

/-- Contraction coordinate 1: the accumulator is left holding what it held (`xs0`) plus the product of the two blocks. -/
theorem acc_second (c : Dev nD) (i : grid0.Coords) (a2 : Memref sig .tc .vmem S1024x1024 .f32) (h2 : a2.IsWhole)
    (a3 : Memref sig .tc .vmem S64x1024 .f32) (h3 : a3.IsWhole) (a4 : Memref sig .tc .vmem S1024x64 .f32) (h4 : a4.IsWhole)
    (a5 : Memref sig .tc .vmem S1024x64 .f32) (h5 : a5.IsWhole) (hc0 : ¬cond0_0 i) (hc1 : cond0_1 i) (hc2 : cond0_2 i)
    (x0 : Vec F S1024x1024 .f32) (x1 : Vec F S64x1024 .f32) (xs0 : Vec F S1024x64 .f32) :
    sout0_B_0 c i a2 h2 a3 h3 a4 h4 a5 h5 hc0 hc1 hc2 x0 x1 xs0 = k0_pay3 x0 x1 xs0 := by
  unfold sout0_B_0
  rw [View.read_writes_eq_canon _ _ _ (scover0_B_0 c i a2 h2 a3 h3 a4 h4 a5 h5 hc0 hc1 hc2 x0 x1 xs0)]
  unfold kernelRun0_B
  dsimp only
  sl_unfold_words
  rw [View.canon_unit_zero hz]
  simp only [View.readAt_eq_ld, h2.read_unread, h3.read_unread, h5.read_unread, View.ld_unit_zero (S := S1024x1024) hz,
    View.ld_unit_zero (S := S64x1024) hz, View.ld_unit_zero (S := S1024x64) hz]

/-- Contraction coordinate 1: the output block is left holding the row softmax of the accumulator's new contents. -/
theorem out_second (c : Dev nD) (i : grid0.Coords) (a2 : Memref sig .tc .vmem S1024x1024 .f32) (h2 : a2.IsWhole)
    (a3 : Memref sig .tc .vmem S64x1024 .f32) (h3 : a3.IsWhole) (a4 : Memref sig .tc .vmem S1024x64 .f32) (h4 : a4.IsWhole)
    (a5 : Memref sig .tc .vmem S1024x64 .f32) (h5 : a5.IsWhole) (hc0 : ¬cond0_0 i) (hc1 : cond0_1 i) (hc2 : cond0_2 i)
    (x0 : Vec F S1024x1024 .f32) (x1 : Vec F S64x1024 .f32) (xs0 : Vec F S1024x64 .f32) :
    out0_B_2 c i a2 h2 a3 h3 a4 h4 a5 h5 hc0 hc1 hc2 x0 x1 xs0 = k0_pay4 (k0_pay3 x0 x1 xs0) := by
  unfold out0_B_2
  rw [View.read_writes_eq_canon _ _ _ (cover0_B_2 c i a2 h2 a3 h3 a4 h4 a5 h5 hc0 hc1 hc2 x0 x1 xs0)]
  unfold kernelRun0_B
  dsimp only
  sl_unfold_words
  rw [View.canon_unit_zero hz, View.readCov_unit_zero (S := S1024x64) _ hz]
  simp only [View.readAt_eq_ld, h2.read_unread, h3.read_unread, h5.read_unread, View.ld_unit_zero (S := S1024x1024) hz,
    View.ld_unit_zero (S := S64x1024) hz, View.ld_unit_zero (S := S1024x64) hz]

end Cert.KernelIdeal.Pieces

end
-- ==== Proof.Softmax.lean ====
/-
  The gate function both programs compute, as one function of the two argument arrays over the extended
  reals: a row's logits are the inner products of that row of the tokens with each expert's weight row,
  and the gates are the softmax of the logits along the experts — every exponential taken after the row's
  maximum is subtracted, divided by the sum of the row's exponentials.

  Two small laws of the extended reals join the two programs to this function. A sum over the 2048
  contraction indices is the sum over the first 1024 plus the sum over the last 1024: addition on the
  extended reals is commutative and associative, so this needs no finiteness. And a running maximum that
  starts from a value never falls below it, so taking the maximum with that starting value once more
  changes nothing.
-/
import Idealize.ShloMosaic.PureOps.Ideal
import Idealize.ShloMosaic.PureOps.Ideal.Laws
import Idealize.ShloMosaic.Lib.ValueIdx

noncomputable section

namespace Cert.Gate

open Idealize.ShloMosaic Idealize.ShloMosaic.ValueIdx

/-- The value a row maximum starts from: the f32 word of minus infinity, the same word in both programs
    (never evaluated: it only has to be the same on both sides). -/
abbrev start : EReal := Ideal.ofBits .f32 0xFF800000#32

/-- The maximum of a row of 64 logits, folded from `start`. -/
def rowMax (L : Fin 64 → EReal) : EReal := (Finset.univ : Finset (Fin 64)).fold max start L

/-- The exponential of a logit after the row's maximum is subtracted. -/
def shifted (L : Fin 64 → EReal) (e : Fin 64) : EReal := Ideal.exp (L e - rowMax L)

/-- The softmax of a row of 64 logits at expert `e`. -/
def softmax (L : Fin 64 → EReal) (e : Fin 64) : EReal := Ideal.div (shifted L e) (∑ e' : Fin 64, shifted L e')

/-- Token `r`'s logit for expert `e`: the inner product of row `r` of the tokens and row `e` of the weights. -/
def logit (x : (⟨2, ![8192, 2048]⟩ : Shape).Idx → EReal) (w : (⟨2, ![64, 2048]⟩ : Shape).Idx → EReal)
    (r : Fin 8192) (e : Fin 64) : EReal :=
  ∑ k : Fin 2048, x (ix2 r k) * w (ix2 e k)

/-- The gates: the softmax of each token's logits, as one function of the tokens and the weights. -/
def gates (x : (⟨2, ![8192, 2048]⟩ : Shape).Idx → EReal) (w : (⟨2, ![64, 2048]⟩ : Shape).Idx → EReal) :
    (⟨2, ![8192, 64]⟩ : Shape).Idx → EReal :=
  fun i => softmax (logit x w (i 0)) (i 1)

/-- A fold of `max` from `b` is at least `b`, so one more `max` with `b` is absorbed. -/
theorem max_fold_absorb (b : EReal) (f : Fin 64 → EReal) :
    max b ((Finset.univ : Finset (Fin 64)).fold max b f) = (Finset.univ : Finset (Fin 64)).fold max b f :=
  max_eq_right ((Finset.le_fold_max b).mpr (Or.inl le_rfl))

/-- A sum over 2048 indices is the sum over the first 1024 plus the sum over the last 1024. -/
theorem sum_halves (f : Fin 2048 → EReal) :
    ∑ k : Fin 2048, f k
      = ∑ k : Fin 1024, f ⟨k.val, by have := k.isLt; omega⟩ + ∑ k : Fin 1024, f ⟨1024 + k.val, by have := k.isLt; omega⟩ :=
  Fin.sum_univ_add (a := 1024) (b := 1024) f

end Cert.Gate

end
-- ==== Proof.Payload.lean ====
/-
  The kernel body's arithmetic read at an index, over the extended reals: the product of a token block and
  a weight block is a sum over the 1024 shared columns; the accumulator's two stores are that sum and that sum
  added to what was there; the last stage is the row softmax. Together: the output block of a pair of
  consecutive grid points is a block of the gate function.
-/
import proofs.«140512_g13709535609206_cont_week2b_1308_11_alg».proof.Proof.Gen.KernelIdeal.Skeleton
import proofs.«140512_g13709535609206_cont_week2b_1308_11_alg».proof.Proof.Softmax
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.Gate

/-! ## The product of two blocks at an index

The body's matrix product contracts the second axis of the token block with the second axis of the weight
block and accumulates into zero, so at `(p, q)` it is the inner product of row `p` of the one with row `q`
of the other. The four lemmas below name the operand indices the contraction visits. -/

theorem lhs0 (j : S1024x64.Idx) (q : (dot_S1024x1024_S64x1024_S1024x64_1_1_0_0_n_n).contr.Idx) :
    ((dot_S1024x1024_S64x1024_S1024x64_1_1_0_0_n_n).lhsIdx j q 0).val = (j 0).val := by
  unfold DotDims.lhsIdx
  rw [dif_neg (show ¬(0 : Fin S1024x1024.rank) ∈ (dot_S1024x1024_S64x1024_S1024x64_1_1_0_0_n_n).lhsBatch by decide), dif_pos (show (0 : Fin S1024x1024.rank) ∈ (dot_S1024x1024_S64x1024_S1024x64_1_1_0_0_n_n).lhsNonContracting by decide)]
  rfl
theorem lhs1 (j : S1024x64.Idx) (q : (dot_S1024x1024_S64x1024_S1024x64_1_1_0_0_n_n).contr.Idx) :
    ((dot_S1024x1024_S64x1024_S1024x64_1_1_0_0_n_n).lhsIdx j q 1).val = (q ⟨0, by decide⟩).val :=
  (dot_S1024x1024_S64x1024_S1024x64_1_1_0_0_n_n).lhsIdx_val_of_single rfl j q
theorem rhs0 (j : S1024x64.Idx) (q : (dot_S1024x1024_S64x1024_S1024x64_1_1_0_0_n_n).contr.Idx) :
    ((dot_S1024x1024_S64x1024_S1024x64_1_1_0_0_n_n).rhsIdx j q 0).val = (j 1).val := by
  unfold DotDims.rhsIdx
  rw [dif_neg (show ¬(0 : Fin S64x1024.rank) ∈ (dot_S1024x1024_S64x1024_S1024x64_1_1_0_0_n_n).rhsBatch by decide), dif_pos (show (0 : Fin S64x1024.rank) ∈ (dot_S1024x1024_S64x1024_S1024x64_1_1_0_0_n_n).rhsNonContracting by decide)]
  rfl
theorem rhs1 (j : S1024x64.Idx) (q : (dot_S1024x1024_S64x1024_S1024x64_1_1_0_0_n_n).contr.Idx) :
    ((dot_S1024x1024_S64x1024_S1024x64_1_1_0_0_n_n).rhsIdx j q 1).val = (q ⟨0, by decide⟩).val :=
  (dot_S1024x1024_S64x1024_S1024x64_1_1_0_0_n_n).rhsIdx_val_of_single rfl j q

/-- The product of a token block and a weight block at `(p, q)`. -/
theorem product_apply (v0 : Vec Ideal S1024x1024 .f32) (v1 : Vec Ideal S64x1024 .f32) (p : Fin 1024) (q : Fin 64) :
    k0_pay1 (F := Ideal) v0 v1 (ix2 p q) = ∑ k : Fin 1024, v0 (ix2 p k) * v1 (ix2 q k) := by
  unfold k0_pay1
  simp only [matmul]
  rw [Ideal.matmul_constant_zero_apply, ← Equiv.sum_comp (ValueIdx.contrEquiv1 dot_S1024x1024_S64x1024_S1024x64_1_1_0_0_n_n 1024 rfl rfl).symm]
  refine Finset.sum_congr rfl fun k _ => ?_
  have hk := ValueIdx.contrEquiv1_symm_val dot_S1024x1024_S64x1024_S1024x64_1_1_0_0_n_n 1024 rfl rfl k
  have el : (dot_S1024x1024_S64x1024_S1024x64_1_1_0_0_n_n).lhsIdx (ix2 p q) ((ValueIdx.contrEquiv1 dot_S1024x1024_S64x1024_S1024x64_1_1_0_0_n_n 1024 rfl rfl).symm k) = ix2 p k := funext fun a => Fin.ext (by
    match a with
    | ⟨0, _⟩ => exact lhs0 _ _
    | ⟨1, _⟩ => exact (lhs1 _ _).trans hk)
  have er : (dot_S1024x1024_S64x1024_S1024x64_1_1_0_0_n_n).rhsIdx (ix2 p q) ((ValueIdx.contrEquiv1 dot_S1024x1024_S64x1024_S1024x64_1_1_0_0_n_n 1024 rfl rfl).symm k) = ix2 q k := funext fun a => Fin.ext (by
    match a with
    | ⟨0, _⟩ => exact rhs0 _ _
    | ⟨1, _⟩ => exact (rhs1 _ _).trans hk)
  rw [el, er]

/-! ## The row softmax of a block at an index -/

variable {α : Type}

/-- A vector of 1024 entries reshaped to a column, read at row `p`. -/
theorem column_apply (v : S1024.Idx → α) (h : S1024.ShapeCasts S1024x1) (p : Fin 1024) (z : Fin 1) :
    shapeCast S1024x1 v h (ix2 p z) = v (ix1 p) :=
  shapeCast_apply v h (ix2 p z) (ix1 p) (by
    rw [Shape.rowMajor_val_one, Shape.rowMajor_val_two]
    show p.val = p.val * 1 + z.val
    have := z.isLt; omega)

/-- A column broadcast along 64 lanes, read at `(p, q)`: the column's row `p`. -/
theorem lanes_apply (v : S1024x1.Idx → α) (h : S1024x1.Broadcasts S1024x64) (p : Fin 1024) (q : Fin 64) :
    broadcastTo S1024x64 v h (ix2 p q) = v (ix2 p 0) :=
  broadcastTo_apply v h (ix2 p q) (ix2 p 0) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- Row `p`'s `k`-th lane, as the reductions along the lanes name it. -/
theorem lift_eq (p : Fin 1024) (k : Fin 64) : reduces_S1024x64_S1024.lift (ix1 p) k = ix2 p k :=
  funext fun a => Fin.ext (by match a with | ⟨0, _⟩ => rfl | ⟨1, _⟩ => rfl)

/-- The lane maximum of row `p`, started from minus infinity: the row's maximum. -/
theorem rowmax_apply (v : FVec Ideal S1024x64 .f32) (hφ : FKind.Formats .f32)
    (hacc : (0xFF800000#32 : BitVec 32) = FKind.maximumf.neutral .f32 hφ) (p : Fin 1024) :
    multiReduction (F := Ideal) .maximumf [1] S1024 v 0xFF800000#32 reduces_S1024x64_S1024 hφ hacc (ix1 p)
      = rowMax (fun e => v (ix2 p e)) := by
  refine (Ideal.multiReduction_maximumf_single v _ reduces_S1024x64_S1024 hφ hacc (ix1 p)).trans ?_
  unfold rowMax
  refine congrArg (Finset.fold max _ · Finset.univ) (funext fun k => ?_)
  exact congrArg v (lift_eq p k)

/-- The lane sum of row `p`, started from zero: the sum over the row. -/
theorem rowsum_apply (u : FVec Ideal S1024x64 .f32) (hφ : FKind.Formats .f32)
    (hacc : (0x00000000#32 : BitVec 32) = FKind.add.neutral .f32 hφ) (p : Fin 1024) :
    multiReduction (F := Ideal) .add [1] S1024 u 0x00000000#32 reduces_S1024x64_S1024 hφ hacc (ix1 p)
      = ∑ e : Fin 64, u (ix2 p e) := by
  refine (Ideal.multiReduction_add_single u _ reduces_S1024x64_S1024 hφ hacc (ix1 p)).trans ?_
  exact Finset.sum_congr rfl fun k _ => congrArg u (lift_eq p k)

/-- The exponential acts entry by entry. -/
theorem exp_apply (a : FVec Ideal S1024x64 .f32) (i : S1024x64.Idx) : exp a i = Ideal.exp (a i) := rfl

/-- The body's last stage — subtract the row's maximum, exponentiate, divide by the row's sum — at `(p, q)` is
    the softmax of row `p` at `q`; stated for any witnesses of the reductions' side conditions. -/
theorem softmax_core (v : FVec Ideal S1024x64 .f32) (hφ : FKind.Formats .f32)
    (hm : (0xFF800000#32 : BitVec 32) = FKind.maximumf.neutral .f32 hφ) (ha : (0x00000000#32 : BitVec 32) = FKind.add.neutral .f32 hφ)
    (p : Fin 1024) (q : Fin 64) :
    divf (exp (subf v (broadcastTo S1024x64 (shapeCast S1024x1
        (multiReduction (F := Ideal) .maximumf [1] S1024 v 0xFF800000#32 reduces_S1024x64_S1024 hφ hm) shapeCasts_S1024_S1024x1)
        broadcasts_S1024x1_S1024x64)))
      (broadcastTo S1024x64 (shapeCast S1024x1
        (multiReduction (F := Ideal) .add [1] S1024 (exp (subf v (broadcastTo S1024x64 (shapeCast S1024x1
          (multiReduction (F := Ideal) .maximumf [1] S1024 v 0xFF800000#32 reduces_S1024x64_S1024 hφ hm) shapeCasts_S1024_S1024x1)
          broadcasts_S1024x1_S1024x64))) 0x00000000#32 reduces_S1024x64_S1024 hφ ha) shapeCasts_S1024_S1024x1)
        broadcasts_S1024x1_S1024x64) (ix2 p q)
      = softmax (fun e => v (ix2 p e)) q := by
  simp only [divf_apply, exp_apply, subf_apply, lanes_apply, column_apply, rowmax_apply v hφ hm, rowsum_apply _ hφ ha]
  rfl

/-- The output block's value at `(p, q)`: the softmax of row `p` of the accumulator at `q`. -/
theorem softmax_apply (v : FVec Ideal S1024x64 .f32) (p : Fin 1024) (q : Fin 64) :
    k0_pay4 (F := Ideal) v (ix2 p q) = softmax (fun e => v (ix2 p e)) q :=
  softmax_core v _ _ _ p q

/-! ## The accumulator's two stores at an index -/

/-- The first store: the product of the two blocks. -/
theorem first_apply (v0 : Vec Ideal S1024x1024 .f32) (v1 : Vec Ideal S64x1024 .f32) (p : Fin 1024) (q : Fin 64) :
    k0_pay2 (F := Ideal) v0 v1 (ix2 p q) = ∑ k : Fin 1024, v0 (ix2 p k) * v1 (ix2 q k) := by
  unfold k0_pay2
  rw [shapeCast_self]
  exact product_apply v0 v1 p q

/-- The second store: what the accumulator held plus the product of the two blocks. -/
theorem second_apply (v0 : Vec Ideal S1024x1024 .f32) (v1 : Vec Ideal S64x1024 .f32) (acc : Vec Ideal S1024x64 .f32)
    (p : Fin 1024) (q : Fin 64) :
    k0_pay3 (F := Ideal) v0 v1 acc (ix2 p q) = acc (ix2 p q) + ∑ k : Fin 1024, v0 (ix2 p k) * v1 (ix2 q k) := by
  unfold k0_pay3
  rw [shapeCast_self]
  exact congrArg (acc (ix2 p q) + ·) (product_apply v0 v1 p q)

/-! ## One output block is a block of the gate function

If the two token blocks a pair of consecutive points loads are the left and right halves (columns below and
from 1024) of the rows `r p` of the tokens, and the two weight blocks are the left and right halves of the
weights, then the accumulator after the second point holds those rows' logits — the inner product over all
2048 columns, split into its two halves — and the output block holds their softmax. -/

theorem block_gates (X : (⟨2, ![8192, 2048]⟩ : Shape).Idx → EReal) (W : (⟨2, ![64, 2048]⟩ : Shape).Idx → EReal)
    (a0 a1 : Vec Ideal S1024x1024 .f32) (w0 w1 : Vec Ideal S64x1024 .f32) (r : Fin 1024 → Fin 8192)
    (ha0 : ∀ (p k : Fin 1024), a0 (ix2 p k) = X (ix2 (r p) ⟨k.val, by have := k.isLt; omega⟩))
    (ha1 : ∀ (p k : Fin 1024), a1 (ix2 p k) = X (ix2 (r p) ⟨1024 + k.val, by have := k.isLt; omega⟩))
    (hw0 : ∀ (q : Fin 64) (k : Fin 1024), w0 (ix2 q k) = W (ix2 q ⟨k.val, by have := k.isLt; omega⟩))
    (hw1 : ∀ (q : Fin 64) (k : Fin 1024), w1 (ix2 q k) = W (ix2 q ⟨1024 + k.val, by have := k.isLt; omega⟩))
    (p : Fin 1024) (q : Fin 64) :
    k0_pay4 (F := Ideal) (k0_pay3 a1 w1 (k0_pay2 a0 w0)) (ix2 p q) = gates X W (ix2 (r p) q) := by
  rw [softmax_apply]
  show softmax _ q = softmax (logit X W (r p)) q
  refine congrArg (softmax · q) (funext fun e => ?_)
  rw [second_apply, first_apply]
  unfold logit
  rw [sum_halves]
  simp only [ha0, ha1, hw0, hw1]

end Cert.KernelIdeal.Payload

end
-- ==== Proof.GatesArray.lean ====
/-
  From blocks to the whole array, for the idealized kernel.

  The grid has sixteen points; point `t` works on token tile `t / 2` (1024 rows) and on contraction half `t % 2`
  (1024 columns). The accumulator is carried from a point with contraction half 0 to the next point, which has
  contraction half 1 and the same token tile; only the points with contraction half 1 store the output block and
  write it back. So what such a point writes back is the softmax of (first-half products + second-half products)
  of its token tile: its block of the gate function. The eight written blocks tile the 8192 rows of the result,
  hence the result array ends holding the gate function of the two argument arrays.
-/
import proofs.«140512_g13709535609206_cont_week2b_1308_11_alg».proof.Proof.Gen.KernelIdeal.Value
import proofs.«140512_g13709535609206_cont_week2b_1308_11_alg».proof.Proof.Pieces
import proofs.«140512_g13709535609206_cont_week2b_1308_11_alg».proof.Proof.Payload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Gates

open Cert.KernelIdeal Cert.KernelIdeal.Gen Cert.Gate

variable (m : (ℓ : Loc nD τ sig) → Buf (Elt Ideal) ℓ) (ρ : Dev nD → PrngReg)

/-- Where each window's block sits at grid point `t`, whose token-tile coordinate is `t / 2` and whose contraction
    coordinate is `t % 2`: the token block at tile row `t / 2`, tile column `t % 2`; the weight block at tile
    column `t % 2`; the output block at tile row `t / 2`. Decided over the sixteen points. -/
theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val / 2 ∧ win0_2.index t (1 : Fin 2) = 0 :=
  (by decide +kernel : ∀ t : Fin grid0.N, _)

/-- After a point with contraction coordinate 0 the accumulator holds the product of that point's two blocks. -/
theorem acc_after_first (c : Dev nD) (s : Fin cfg0.N) (h0 : s.val % 2 = 0) :
    (outsAt0 m c s.val s.isLt).2 = k0_pay2 (iblk m c 0 s) (iblk m c 1 s) := by
  have h1 : ¬s.val % 2 = 1 := by omega
  rw [outsAt0_A m c s h0 h1 h1]
  dsimp only
  rw [Pieces.acc_first]

/-- What a point with contraction coordinate 1 writes back is its block of the gate function of the arguments. -/
theorem flushed_eq (c : Dev nD) (t : Fin cfg0.N) (hf : (cfg0.win 2).flush t = true) :
    (dats m 0 c).flushed 2 t
      = ((cfg0.win 2).blk t).view.read (Elt Ideal) (gates (V m c main_arg0) (V m c main_arg1)) := by
  have h1 : t.val % 2 = 1 := (flush0_2 t).mp hf
  have h0 : ¬t.val % 2 = 0 := by omega
  have hlt : t.val - 1 < cfg0.N := Nat.lt_of_le_of_lt (Nat.sub_le _ _) t.isLt
  have hacc := acc_after_first m c ⟨t.val - 1, hlt⟩ (by dsimp only; omega)
  dsimp only at hacc
  rw [Value.flushed2_B m c t h0 h1 h1, Pieces.out_second, hacc]
  funext j
  have hp : (j 0).val < 1024 := (j 0).isLt
  have hq : (j 1).val < 64 := (j 1).isLt
  have hN : t.val < 16 := lt_of_lt_of_eq t.isLt N_0
  obtain ⟨e0, e1, e2, e3, e4, e5⟩ := idx_facts t
  obtain ⟨f0, f1, f2, f3, -, -⟩ := idx_facts ⟨t.val - 1, hlt⟩
  dsimp only at f0 f1 f2 f3
  show k0_pay4 (F := Ideal) (k0_pay3 (iblk m c 0 t) (iblk m c 1 t)
      (k0_pay2 (iblk m c 0 ⟨t.val - 1, hlt⟩) (iblk m c 1 ⟨t.val - 1, hlt⟩))) (ix2 ⟨(j 0).val, hp⟩ ⟨(j 1).val, hq⟩)
    = gates (V m c main_arg0) (V m c main_arg1) (((cfg0.win 2).blk t).view.emb j)
  refine (Payload.block_gates (V m c main_arg0) (V m c main_arg1) (iblk m c 0 ⟨t.val - 1, hlt⟩) (iblk m c 0 t)
    (iblk m c 1 ⟨t.val - 1, hlt⟩) (iblk m c 1 t) (fun p => ⟨1024 * (t.val / 2) + p.val, by have := p.isLt; omega⟩)
    ?_ ?_ ?_ ?_ ⟨(j 0).val, hp⟩ ⟨(j 1).val, hq⟩).trans ?_
  · intro p k
    show V m c main_arg0 (((cfg0.win 0).blk ⟨t.val - 1, hlt⟩).view.emb (ix2 p k)) = _
    refine congrArg (V m c main_arg0) (funext fun a => Fin.ext ?_)
    match a with
    | ⟨0, _⟩ =>
      show win0_0.index ⟨t.val - 1, hlt⟩ (0 : Fin 2) * 1024 + 1 * p.val = 1024 * (t.val / 2) + p.val
      rw [f0]; omega
    | ⟨1, _⟩ =>
      show win0_0.index ⟨t.val - 1, hlt⟩ (1 : Fin 2) * 1024 + 1 * k.val = k.val
      rw [f1]; omega
  · intro p k
    show V m c main_arg0 (((cfg0.win 0).blk t).view.emb (ix2 p k)) = _
    refine congrArg (V m c main_arg0) (funext fun a => Fin.ext ?_)
    match a with
    | ⟨0, _⟩ =>
      show win0_0.index t (0 : Fin 2) * 1024 + 1 * p.val = 1024 * (t.val / 2) + p.val
      rw [e0]; omega
    | ⟨1, _⟩ =>
      show win0_0.index t (1 : Fin 2) * 1024 + 1 * k.val = 1024 + k.val
      rw [e1]; omega
  · intro q k
    show V m c main_arg1 (((cfg0.win 1).blk ⟨t.val - 1, hlt⟩).view.emb (ix2 q k)) = _
    refine congrArg (V m c main_arg1) (funext fun a => Fin.ext ?_)
    match a with
    | ⟨0, _⟩ =>
      show win0_1.index ⟨t.val - 1, hlt⟩ (0 : Fin 2) * 64 + 1 * q.val = q.val
      rw [f2]; omega
    | ⟨1, _⟩ =>
      show win0_1.index ⟨t.val - 1, hlt⟩ (1 : Fin 2) * 1024 + 1 * k.val = k.val
      rw [f3]; omega
  · intro q k
    show V m c main_arg1 (((cfg0.win 1).blk t).view.emb (ix2 q k)) = _
    refine congrArg (V m c main_arg1) (funext fun a => Fin.ext ?_)
    match a with
    | ⟨0, _⟩ =>
      show win0_1.index t (0 : Fin 2) * 64 + 1 * q.val = q.val
      rw [e2]; omega
    | ⟨1, _⟩ =>
      show win0_1.index t (1 : Fin 2) * 1024 + 1 * k.val = 1024 + k.val
      rw [e3]; omega
  · refine congrArg (gates (V m c main_arg0) (V m c main_arg1)) (funext fun a => Fin.ext ?_)
    match a with
    | ⟨0, _⟩ =>
      show 1024 * (t.val / 2) + (j 0).val = win0_2.index t (0 : Fin 2) * 1024 + 1 * (j 0).val
      rw [e4]; omega
    | ⟨1, _⟩ =>
      show (j 1).val = win0_2.index t (1 : Fin 2) * 64 + 1 * (j 1).val
      rw [e5]; omega

/-- An index of the result array is in point `t`'s block iff each coordinate is in the block's range on its axis. -/
theorem mem_blk (t : Fin cfg0.N) (i : S8192x64.Idx) :
    i ∈ ((cfg0.win 2).blk t).view.set ↔ ∀ a : Fin 2, win0_2.index t a * S1024x64.size a ≤ (i a).val
      ∧ (i a).val < win0_2.index t a * S1024x64.size a + S1024x64.size a := by
  show i ∈ ((View.whole main_v0).slice (win0_2.rect t)).set ↔ _
  rw [View.set_slice_whole, Rect.mem_set_unit]
  exact Iff.rfl

/-- Every entry of the result array is written back: row `r` lies in token tile `r / 1024`, whose block the point with
    that tile coordinate and contraction coordinate 1 writes. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 16 := N_0
  have hlt : 2 * ((i 0).val / 1024) + 1 < cfg0.N := by omega
  obtain ⟨-, -, -, -, e4, e5⟩ := idx_facts ⟨2 * ((i 0).val / 1024) + 1, hlt⟩
  dsimp only at e4 e5
  refine ⟨⟨2 * ((i 0).val / 1024) + 1, hlt⟩, (flush0_2 _).mpr (by dsimp only; omega), ?_⟩
  rw [mem_blk]
  intro a
  match a with
  | ⟨0, _⟩ =>
    show win0_2.index ⟨2 * ((i 0).val / 1024) + 1, hlt⟩ (0 : Fin 2) * 1024 ≤ (i 0).val
      ∧ (i 0).val < win0_2.index ⟨2 * ((i 0).val / 1024) + 1, hlt⟩ (0 : Fin 2) * 1024 + 1024
    rw [e4]; omega
  | ⟨1, _⟩ =>
    show win0_2.index ⟨2 * ((i 0).val / 1024) + 1, hlt⟩ (1 : Fin 2) * 64 ≤ (i 1).val
      ∧ (i 1).val < win0_2.index ⟨2 * ((i 0).val / 1024) + 1, hlt⟩ (1 : Fin 2) * 64 + 64
    rw [e5]; omega

/-- After the run the result array holds the gate function of the two argument arrays. -/
theorem final (c : Dev nD) :
    (dats m 0 c).arrAt 2 cfg0.N
      = gates (m ((c : Thread nD τ).loc main_arg0)) (m ((c : Thread nD τ).loc main_arg1)) :=
  (dats m 0 c).arrAt_eq_of_cover 2 (gates (V m c main_arg0) (V m c main_arg1)) (flushed_eq m c) cover

/-- The kernel's run, read: the result at the gate function of the arguments, the arguments unchanged. -/
theorem run : θ_run defs (onTc (τ := τ) (main (F := Ideal))) ⟨m, fun _ => 0, ρ⟩ fun r => ∀ c : Dev nD,
      r.2.mem ((c : Thread nD τ).loc main_v0)
        = gates (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Gates

end
-- ==== Proof.RefGates.lean ====
/-
  The reference program's result is the gate function of its two arguments.

  Read one operation at a time: the transposed weights put expert `e`'s row `k` at `(k, e)`, so the
  reference's matrix product at `(r, e)` is the inner product of token row `r` with weight row `e`; its row
  maximum is a fold of `max` from minus infinity over the 64 experts, followed by one more `max` with minus
  infinity, which is absorbed; its row sum starts from zero; and its quotient is the same extended-real
  division the gate function is written with.
-/
import proofs.«140512_g13709535609206_cont_week2b_1308_11_alg».proof.Proof.Gen.ReferenceIdeal.Read
import proofs.«140512_g13709535609206_cont_week2b_1308_11_alg».proof.Proof.Softmax

noncomputable section

open Idealize.ShloMosaic Idealize.ShloMosaic.ValueIdx

namespace Cert.ReferenceIdeal.RefValue

open Cert.ReferenceIdeal Cert.ReferenceIdeal.Gen Cert.ReferenceIdeal.Read Cert.Gate

/-- The reference's matrix product at `(r, e)`: token `r`'s logit for expert `e`. -/
theorem logit_apply (x0 : S8192x2048.Idx → EReal) (x1 : S64x2048.Idx → EReal) (r : Fin 8192) (e : Fin 64) :
    val_main_v1 (F := Ideal) x0 x1 (ix2 r e) = logit x0 x1 r e := by
  rw [val_main_v1_apply]
  unfold logit
  refine Finset.sum_congr rfl fun k _ => ?_
  rw [val_main_v0_apply]
  have el : lidx_main_v1 (ix2 r e) k = ix2 r k := funext fun a => Fin.ext (by match a with | ⟨0, _⟩ => rfl | ⟨1, _⟩ => rfl)
  have er : idx_main_v0 (ridx_main_v1 (ix2 r e) k) = ix2 e k := funext fun a => Fin.ext (by match a with | ⟨0, _⟩ => rfl | ⟨1, _⟩ => rfl)
  rw [el, er]

/-- The reference's row maximum at token `r`: the fold of `max` over that token's logits. -/
theorem max_apply (x0 : S8192x2048.Idx → EReal) (x1 : S64x2048.Idx → EReal) (r : Fin 8192) :
    val_main_v4 (F := Ideal) x0 x1 (ix1 r) = rowMax (logit x0 x1 r) := by
  have hred : S8192x64.Reduces [1] S8192 := by decide
  have h2 : val_main_v2 (F := Ideal) x0 x1 (ix1 r) = rowMax (logit x0 x1 r) := by
    unfold val_main_v2
    refine (Host.reduce_eq_fold_single (FloatOps.maximumf (F := Ideal) (φ := .f32)) (val_main_v1 (F := Ideal) x0 x1)
      (val_main_cst (F := Ideal)) reducesTo_S8192x64_S8192_d1 hred h_S_ (ix1 r)).trans ?_
    unfold rowMax
    refine congrArg (Finset.fold max _ · Finset.univ) (funext fun (k : Fin 64) => ?_)
    have e : hred.lift (ix1 r) k = ix2 r k := funext fun a => Fin.ext (by match a with | ⟨0, _⟩ => rfl | ⟨1, _⟩ => rfl)
    exact (congrArg (val_main_v1 (F := Ideal) x0 x1) e).trans (logit_apply x0 x1 r k)
  rw [val_main_v4_apply, h2, val_main_v3_apply, val_main_cst_0_apply]
  exact max_fold_absorb _ _

/-- The reference's exponentials at `(r, e)`: the logit less the row's maximum, exponentiated. -/
theorem shifted_apply (x0 : S8192x2048.Idx → EReal) (x1 : S64x2048.Idx → EReal) (r : Fin 8192) (e : Fin 64) :
    val_main_v8 (F := Ideal) x0 x1 (ix2 r e) = shifted (logit x0 x1 r) e := by
  rw [val_main_v8_apply, val_main_v7_apply, val_main_v6_apply, val_main_v5_apply]
  have e5 : idx_main_v5 (idx_main_v6 (ix2 r e)) = ix1 r := funext fun a => Fin.ext (by match a with | ⟨0, _⟩ => rfl)
  rw [e5, max_apply, logit_apply]
  rfl

/-- The reference's result, as a function of its two arguments, is the gate function. -/
theorem gates_eq (x0 : S8192x2048.Idx → EReal) (x1 : S64x2048.Idx → EReal) :
    val_main_v12 (F := Ideal) x0 x1 = gates x0 x1 := by
  funext i
  obtain ⟨r, e, rfl⟩ : ∃ (r : Fin 8192) (e : Fin 64), i = ix2 r e := ⟨i 0, i 1, eq_ix2 i⟩
  rw [val_main_v12_apply, val_main_v11_apply, val_main_v10_apply]
  have e10 : idx_main_v10 (idx_main_v11 (ix2 r e)) = ix1 r := funext fun a => Fin.ext (by match a with | ⟨0, _⟩ => rfl)
  have e9 : ∀ k : Fin 64, idx_main_v9 (ix1 r) k = ix2 r k := fun k =>
    funext fun a => Fin.ext (by match a with | ⟨0, _⟩ => rfl | ⟨1, _⟩ => rfl)
  rw [e10, val_main_v9_apply, shifted_apply]
  simp only [e9, shifted_apply]
  show Ideal.div _ (Ideal.ofBits .f32 0x00000000#32 + _) = _
  rw [Ideal.ofBits_zero_f32, zero_add]
  rfl

end Cert.ReferenceIdeal.RefValue

end
-- ==== Proof.lean ====
/-
  The certificate of the gating kernel: gates = softmax(tokens · weightsᵀ) along the experts, for 8192 tokens of
  2048 features and 64 experts.

  The kernel splits the 2048-long contraction in two halves over a grid axis, accumulates the two partial products
  in a scratch buffer, and on the second half applies the row softmax (subtract the row's maximum, exponentiate,
  divide by the row's sum) to the accumulated logits. The reference multiplies by the transposed weights in one
  product and applies the same softmax. Over the extended reals both are one function of the arguments
  (`Cert.Gate.gates`): a sum over 2048 indices is the sum of its two halves, and the reference's extra `max` with
  minus infinity is absorbed by the row maximum. Neither law needs the inputs to be finite.

  The three frame claims are the generated frames (the reference's is its generated run with the result dropped);
  the idealization rewrote nothing, so the preservation claim is trivial.
-/
import proofs.«140512_g13709535609206_cont_week2b_1308_11_alg».proof.Defs
import proofs.«140512_g13709535609206_cont_week2b_1308_11_alg».proof.Proof.Gen.Kernel
import proofs.«140512_g13709535609206_cont_week2b_1308_11_alg».proof.Proof.Gen.Kernel.Skeleton
import proofs.«140512_g13709535609206_cont_week2b_1308_11_alg».proof.Proof.Gen.Kernel.Launch
import proofs.«140512_g13709535609206_cont_week2b_1308_11_alg».proof.Proof.Gen.Kernel.Points
import proofs.«140512_g13709535609206_cont_week2b_1308_11_alg».proof.Proof.Gen.Kernel.Frame
import proofs.«140512_g13709535609206_cont_week2b_1308_11_alg».proof.Proof.Gen.KernelIdeal
import proofs.«140512_g13709535609206_cont_week2b_1308_11_alg».proof.Proof.Gen.KernelIdeal.Skeleton
import proofs.«140512_g13709535609206_cont_week2b_1308_11_alg».proof.Proof.Gen.KernelIdeal.Launch
import proofs.«140512_g13709535609206_cont_week2b_1308_11_alg».proof.Proof.Gen.KernelIdeal.Points
import proofs.«140512_g13709535609206_cont_week2b_1308_11_alg».proof.Proof.Gen.KernelIdeal.Frame
import proofs.«140512_g13709535609206_cont_week2b_1308_11_alg».proof.Proof.Gen.ReferenceIdeal
import proofs.«140512_g13709535609206_cont_week2b_1308_11_alg».proof.Proof.Gen.Pre_finite_inputs
import proofs.«140512_g13709535609206_cont_week2b_1308_11_alg».proof.Proof.Gen.KernelIdeal.Value
import proofs.«140512_g13709535609206_cont_week2b_1308_11_alg».proof.Proof.Gen.ReferenceIdeal.Run
import proofs.«140512_g13709535609206_cont_week2b_1308_11_alg».proof.Proof.Gen.ReferenceIdeal.Read
import proofs.«140512_g13709535609206_cont_week2b_1308_11_alg».proof.Proof.GatesArray
import proofs.«140512_g13709535609206_cont_week2b_1308_11_alg».proof.Proof.RefGates
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the gate function of the arguments in their result: the kernel's result array
    by its blocks, the reference's by reading its operations one at a time; the arguments agree. -/
theorem algebraic : Cert.algebraic_KernelIdeal_ReferenceIdeal := by
  intro m ρ m' ρ' _ hagree
  refine ⟨fun c => Cert.Gate.gates (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Gates.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.gates_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
